-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x3 : Shape := ⟨2, ![100000, 3]⟩
abbrev S2x1600000 : Shape := ⟨2, ![2, 1600000]⟩
abbrev S100000x1 : Shape := ⟨2, ![100000, 1]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S100000x1 : S_.BroadcastsInDim S100000x1 (![] : Fin 0 → Fin S100000x1.rank)
  reducesTo_S100000x1_S_d0_1 : S100000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x64 .f32) (main_arg11 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : FVec F S100000x3 .f32) (main_arg2 : IVec S2x1600000 32) (main_arg3 : FVec F S100000x1 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S100000x1 .f32 := Host.absf main_arg3
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S100000x3 : Shape := ⟨2, ![100000, 3]⟩
abbrev S2x1600000 : Shape := ⟨2, ![2, 1600000]⟩
abbrev S100000x1 : Shape := ⟨2, ![100000, 1]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S2000x64 : Shape := ⟨2, ![2000, 64]⟩

abbrev nBuf : Space → Nat
  | .hbm => 50
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S100000x3, .f32⟩
  | .hbm, ⟨2, _⟩ => ⟨S2x1600000, .i32⟩
  | .hbm, ⟨3, _⟩ => ⟨S100000x1, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S1x64, .f32⟩
  | .hbm, ⟨30, _⟩ => ⟨S1x64, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S1x64, .f32⟩
  | .hbm, ⟨46, _⟩ => ⟨S1x64, .f32⟩
  | .hbm, ⟨47, _⟩ => ⟨S100000x64, .f32⟩
  | .hbm, ⟨48, _⟩ => ⟨S100000x64, .f32⟩
  | .hbm, ⟨49, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S100000x3 : Shape := ⟨2, ![100000, 3]⟩
abbrev S2x1600000 : Shape := ⟨2, ![2, 1600000]⟩
abbrev S100000x1 : Shape := ⟨2, ![100000, 1]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 68
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x3, .f32⟩
  | .hbm, ⟨2, _⟩ => ⟨S2x1600000, .i32⟩
  | .hbm, ⟨3, _⟩ => ⟨S100000x1, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S1x64, .f32⟩
  | .hbm, ⟨32, _⟩ => ⟨S100000x64, .f32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_1 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_cst : Ref sig .tc := ⟨.hbm, 59, rfl⟩
abbrev main_call1_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«126800_j39273180954650_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«126800_j39273180954650_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«126800_j39273180954650_1_alg».proof.Proof.LibBlockReads
import proofs.«126800_j39273180954650_1_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibDenseLayers.lean ====
/-
  Dense layers on the extended reals, as functions of whole arrays.

  A layer takes an r×k array X, a k×n array W and a vector b of n entries to the r×n array whose entry (p, q) is the
  sum over c of X(p, c) · W(c, q), plus b(q) — `affine` — or the maximum of that and zero — `dense`. An entry of a
  layer's result depends on one row of X, one column of W and one entry of b, so a layer applied to some rows of X
  (and to some columns of W with the matching entries of b) gives those rows (and columns) of the layer applied to
  the whole arrays: `dense_rows`, `affine_rows`, `affine_block`, with the row and column maps as variables. The two
  spellings of the bias are read once — a kernel body's (the vector re-shaped to a 1×n row, broadcast down the rows,
  added: `body_bias`, and with the maximum with a splat of the zero word: `body_bias_max`) and a host program's (the
  vector broadcast into a 1×n row and that into the r×n array, added: `host_bias`; with the maximum it is
  `Cert.Lib.BiasRelu.host_eq`) — and `max_biasAdd` takes the maximum of an already-read bias with the zero splat
  (the form a rewriting pass meets, since it reads the inner sum first). Sums and maxima on the extended reals need no
  finiteness here: nothing is distributed or cancelled. Nothing here mentions a program.
-/
import Idealize.ShloMosaic.PureOps.Ideal.Laws
import Idealize.ShloMosaic.Lib.ValueIdx
import Idealize.ShloMosaic.Lib.Pipeline.Value
import proofs.«126800_j39273180954650_1_alg».proof.Proof.LibMatProd
import proofs.«126800_j39273180954650_1_alg».proof.Proof.LibBiasRelu
import proofs.«126800_j39273180954650_1_alg».proof.Proof.LibRowVector
import proofs.«126800_j39273180954650_1_alg».proof.Proof.LibBlockReads

open scoped BigOperators

noncomputable section

namespace Cert.Layers

open Idealize.ShloMosaic Idealize.ShloMosaic.ValueIdx Cert.Lib.MatProd Cert.Lib.BiasRelu Cert.Lib.RowVector

variable {r r' k n n' : Nat}

/-- Entry (p, q) is X(p, q) + b(0, q). -/
def biasAdd (X : (⟨2, ![r, n]⟩ : Shape).Idx → EReal) (b : (⟨2, ![1, n]⟩ : Shape).Idx → EReal) :
    (⟨2, ![r, n]⟩ : Shape).Idx → EReal :=
  fun i => X i + b (ix2 (0 : Fin 1) (⟨(i 1).val, idx2_lt1 i⟩ : Fin n))

theorem biasAdd_apply (X : (⟨2, ![r, n]⟩ : Shape).Idx → EReal) (b : (⟨2, ![1, n]⟩ : Shape).Idx → EReal)
    (p : Fin r) (q : Fin n) : biasAdd X b (ix2 p q) = X (ix2 p q) + b (ix2 0 q) := rfl

/-- A layer with the maximum: entry (p, q) is max (∑ c, X(p, c) · W(c, q) + b(q)) 0. -/
def dense (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasRelu (matProd X W) (asRow b)

/-- A layer without it: entry (p, q) is ∑ c, X(p, c) · W(c, q) + b(q). -/
def affine (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasAdd (matProd X W) (asRow b)

/-- If row p of X' is row ρ p of X, row p of `dense X' W b` is row ρ p of `dense X W b`. -/
theorem dense_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    dense X' W b (ix2 p q) = dense X W b (ix2 (ρ p) q) :=
  biasRelu_rows _ _ _ p (ρ p) q (matProd_block X X' W W p q (ρ p) q (h p) fun _ => rfl)

/-- The same for a layer without the maximum, a block of columns of W and the matching entries of b taken as well:
    if also column q of W' is column γ q of W and entry q of b' is entry γ q of b, entry (p, q) of
    `affine X' W' b'` is entry (ρ p, γ q) of `affine X W b`. -/
theorem affine_block (X : (⟨2, ![r, k]⟩ : Shape).Idx → EReal) (X' : (⟨2, ![r', k]⟩ : Shape).Idx → EReal)
    (W : (⟨2, ![k, n]⟩ : Shape).Idx → EReal) (W' : (⟨2, ![k, n']⟩ : Shape).Idx → EReal)
    (b : (⟨1, ![n]⟩ : Shape).Idx → EReal) (b' : (⟨1, ![n']⟩ : Shape).Idx → EReal)
    (ρ : Fin r' → Fin r) (γ : Fin n' → Fin n)
    (hX : ∀ (p : Fin r') (c : Fin k), X' (ix2 p c) = X (ix2 (ρ p) c))
    (hW : ∀ (c : Fin k) (q : Fin n'), W' (ix2 c q) = W (ix2 c (γ q)))
    (hb : ∀ q : Fin n', b' (ix1 q) = b (ix1 (γ q))) (p : Fin r') (q : Fin n') :
    affine X' W' b' (ix2 p q) = affine X W b (ix2 (ρ p) (γ q)) := by
  unfold affine
  rw [biasAdd_apply, biasAdd_apply, asRow_apply, asRow_apply, hb q,
    matProd_block X X' W W' p q (ρ p) (γ q) (hX p) fun c => hW c q]

theorem affine_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    affine X' W b (ix2 p q) = affine X W b (ix2 (ρ p) q) :=
  affine_block X X' W W b b ρ id h (fun _ _ => rfl) (fun _ => rfl) p q

/-! ## The two spellings of a layer's bias and maximum -/

/-- The kernel body's bias: the vector re-shaped to a 1×n row and broadcast down the rows, then added. -/
theorem body_bias (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ v h) hb) = biasAdd M (asRow v) := by
  funext i
  obtain ⟨p, q, rfl⟩ : ∃ (p : Fin r) (q : Fin n), i = ix2 p q := ⟨i 0, i 1, eq_ix2 i⟩
  rw [addf_apply, Cert.Lib.BlockReads.broadcast_row_apply, shapeCast_eq_asRow]
  rfl

/-- The kernel body's bias and maximum with a splat of the zero word. -/
theorem body_bias_max (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    maximumf (addf M (broadcastTo ⟨2, ![r, n]⟩ (shapeCast ⟨2, ![1, n]⟩ v h) hb))
      (broadcast ⟨2, ![r, n]⟩ (Scalar.ofBits (F := Ideal) .f32 0x00000000#32)) = biasRelu M (asRow v) := by
  funext i
  obtain ⟨p, q, rfl⟩ : ∃ (p : Fin r) (q : Fin n), i = ix2 p q := ⟨i 0, i 1, eq_ix2 i⟩
  rw [maximumf_apply, addf_apply, Cert.Lib.BlockReads.broadcast_row_apply, shapeCast_eq_asRow]
  rfl

/-- The reference's bias: the vector broadcast into a 1×n row and that into the r×n array, then added. -/
theorem host_bias (M : FVec Ideal ⟨2, ![r, n]⟩ .f32) (v : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf M (broadcastInDim ⟨2, ![r, n]⟩ ![0, 1] h2 (broadcastInDim ⟨2, ![1, n]⟩ ![1] h1 v)) = biasAdd M (asRow v) := by
  funext i
  obtain ⟨p, q, rfl⟩ : ∃ (p : Fin r) (q : Fin n), i = ix2 p q := ⟨i 0, i 1, eq_ix2 i⟩
  rw [addf_apply, bcastInDim_rows_apply, bcastInDim_eq_asRow]
  rfl

/-- The maximum of a biased matrix with a splat of the zero word is the bias and maximum in one. -/
theorem max_biasAdd (M : (⟨2, ![r, n]⟩ : Shape).Idx → EReal) (b : (⟨2, ![1, n]⟩ : Shape).Idx → EReal) :
    maximumf (F := Ideal) (s := ⟨2, ![r, n]⟩) (φ := .f32) (biasAdd M b)
      (broadcast ⟨2, ![r, n]⟩ (FloatOps.ofBits (F := Ideal) .f32 0x00000000#32)) = biasRelu M b := by
  funext i
  rw [maximumf_apply]
  rfl

end Cert.Layers

end
-- ==== Proof.LibSumLayers.lean ====
/-
  Two dense layers applied to the sum of two arrays of node features, on the extended reals.

  For r×k arrays X and Y, k×k arrays W₁ and W₂ and 1×k rows b₁ and b₂, `mlp X Y W₁ b₁ W₂ b₂` is the r×k array whose
  row p is  max ((X + Y)(p, ·) · W₁ + b₁, 0) · W₂ + b₂ : a matrix product, a bias row, the maximum with zero, a second
  matrix product and a second bias row. Row p of the result is a function of row p of X and row p of Y alone, so the
  layers applied to some rows of X and Y give the same rows of the layers applied to the whole arrays (`mlp_rows`).
  Two spellings of the same function are read once: a kernel body's, on a block of rows (the bias row broadcast down
  the rows, the operands of each product narrowed to a shorter float format, which on the extended reals changes
  nothing, each product accumulated into zeros: `body_eq`, and `body_eq'` when the first summand is also re-shaped
  in place), and a host program's, on the whole arrays (the bias vector broadcast into a row and then into the array,
  the zero a broadcast scalar, each product a dot_general: `host_eq`). No sum is re-ordered and nothing is
  distributed or cancelled, so no finiteness is asked. Nothing here mentions a program.
-/
import Idealize.ShloMosaic.PureOps.Ideal.Laws
import Idealize.ShloMosaic.Lib.ValueIdx
import Idealize.ShloMosaic.Lib.Pipeline.Value
import proofs.«126800_j39273180954650_1_alg».proof.Proof.LibBlockReads
import proofs.«126800_j39273180954650_1_alg».proof.Proof.LibMatProd
import proofs.«126800_j39273180954650_1_alg».proof.Proof.LibBiasRelu
import proofs.«126800_j39273180954650_1_alg».proof.Proof.LibRowVector
import proofs.«126800_j39273180954650_1_alg».proof.Proof.LibDenseLayers

open scoped BigOperators

noncomputable section

namespace Cert.Lib.SumLayers

open Idealize.ShloMosaic Idealize.ShloMosaic.ValueIdx Cert.Lib.MatProd Cert.Lib.BiasRelu Cert.Lib.RowVector Cert.Layers

variable {r r' k : Nat}

/-- Row p is  max ((X + Y)(p, ·) · W₁ + b₁, 0) · W₂ + b₂. -/
def mlp (X Y : (⟨2, ![r, k]⟩ : Shape).Idx → EReal) (W₁ : (⟨2, ![k, k]⟩ : Shape).Idx → EReal)
    (b₁ : (⟨2, ![1, k]⟩ : Shape).Idx → EReal) (W₂ : (⟨2, ![k, k]⟩ : Shape).Idx → EReal)
    (b₂ : (⟨2, ![1, k]⟩ : Shape).Idx → EReal) : (⟨2, ![r, k]⟩ : Shape).Idx → EReal :=
  biasAdd (matProd (biasRelu (matProd (fun i => X i + Y i) W₁) b₁) W₂) b₂

/-- If row p of X' and of Y' is row ρ p of X and of Y, row p of the layers of X', Y' is row ρ p of the layers of X, Y. -/
theorem mlp_rows (X Y : (⟨2, ![r, k]⟩ : Shape).Idx → EReal) (X' Y' : (⟨2, ![r', k]⟩ : Shape).Idx → EReal)
    (W₁ : (⟨2, ![k, k]⟩ : Shape).Idx → EReal) (b₁ : (⟨2, ![1, k]⟩ : Shape).Idx → EReal)
    (W₂ : (⟨2, ![k, k]⟩ : Shape).Idx → EReal) (b₂ : (⟨2, ![1, k]⟩ : Shape).Idx → EReal) (ρ : Fin r' → Fin r)
    (hX : ∀ (p : Fin r') (c : Fin k), X' (ix2 p c) = X (ix2 (ρ p) c))
    (hY : ∀ (p : Fin r') (c : Fin k), Y' (ix2 p c) = Y (ix2 (ρ p) c)) (p : Fin r') (q : Fin k) :
    mlp X' Y' W₁ b₁ W₂ b₂ (ix2 p q) = mlp X Y W₁ b₁ W₂ b₂ (ix2 (ρ p) q) := by
  unfold mlp
  rw [biasAdd_apply, biasAdd_apply]
  refine congrArg (· + b₂ (ix2 0 q)) ?_
  exact matProd_block _ _ W₂ W₂ p q (ρ p) q
    (fun c => biasRelu_rows _ _ b₁ p (ρ p) c
      (matProd_block _ _ W₁ W₁ p c (ρ p) c
        (fun c' => by show X' (ix2 p c') + Y' (ix2 p c') = X (ix2 (ρ p) c') + Y (ix2 (ρ p) c'); rw [hX, hY])
        fun _ => rfl))
    fun _ => rfl

/-- The kernel body's spelling, on a block of rows. -/
theorem body_eq (dd : DotDims ⟨2, ![r, k]⟩ ⟨2, ![k, k]⟩ ⟨2, ![r, k]⟩)
    (hlc : dd.lhsContracting = [1]) (hrc : dd.rhsContracting = [0]) (hln : dd.lhsNonContracting = [0])
    (hrn : dd.rhsNonContracting = [1]) (hlb : dd.lhsBatch = []) (hrb : dd.rhsBatch = [])
    (x0 x1 : FVec Ideal ⟨2, ![r, k]⟩ .f32) (x2 : FVec Ideal ⟨2, ![k, k]⟩ .f32) (x3 : FVec Ideal ⟨2, ![1, k]⟩ .f32)
    (x4 : FVec Ideal ⟨2, ![k, k]⟩ .f32) (x5 : FVec Ideal ⟨2, ![1, k]⟩ .f32)
    (h1 : (⟨2, ![r, k]⟩ : Shape).ShapeCasts ⟨2, ![r, k]⟩) (h3 : (⟨2, ![1, k]⟩ : Shape).ShapeCasts ⟨2, ![1, k]⟩)
    (hb : (⟨2, ![1, k]⟩ : Shape).Broadcasts ⟨2, ![r, k]⟩) (hlt : (FTy.bf16).bits < (FTy.f32).bits) :
    addf (matmul dd none
        (truncf .bf16 (maximumf (addf (matmul dd none (truncf .bf16 (addf x0 (shapeCast ⟨2, ![r, k]⟩ x1 h1)) hlt)
              (truncf .bf16 x2 hlt) (constant ⟨2, ![r, k]⟩ .f32 0x00000000#32))
            (broadcastTo ⟨2, ![r, k]⟩ (shapeCast ⟨2, ![1, k]⟩ x3 h3) hb))
          (broadcast ⟨2, ![r, k]⟩ (Scalar.ofBits (F := Ideal) .f32 0x00000000#32))) hlt)
        (truncf .bf16 x4 hlt) (constant ⟨2, ![r, k]⟩ .f32 0x00000000#32))
      (broadcastTo ⟨2, ![r, k]⟩ (shapeCast ⟨2, ![1, k]⟩ x5 h3) hb)
    = mlp x0 x1 x2 x3 x4 x5 := by
  rw [shapeCast_self x1 h1, shapeCast_self x3 h3, shapeCast_self x5 h3,
    matmul_zero_eq_matProd dd hlc hrc hln hrn hlb hrb, matmul_zero_eq_matProd dd hlc hrc hln hrn hlb hrb]
  funext i
  obtain ⟨p, q, rfl⟩ : ∃ (p : Fin r) (q : Fin k), i = ix2 p q := ⟨i 0, i 1, eq_ix2 i⟩
  unfold mlp
  rw [addf_apply, Cert.Lib.BlockReads.broadcast_row_apply, biasAdd_apply]
  refine congrArg (· + x5 (ix2 0 q)) ?_
  refine matProd_block _ _ _ _ p q p q (fun c => ?_) fun _ => rfl
  rw [truncf_apply, maximumf_apply, addf_apply, Cert.Lib.BlockReads.broadcast_row_apply, biasRelu_apply]
  rfl

/-- The same with the first summand re-shaped in place as well. -/
theorem body_eq' (dd : DotDims ⟨2, ![r, k]⟩ ⟨2, ![k, k]⟩ ⟨2, ![r, k]⟩)
    (hlc : dd.lhsContracting = [1]) (hrc : dd.rhsContracting = [0]) (hln : dd.lhsNonContracting = [0])
    (hrn : dd.rhsNonContracting = [1]) (hlb : dd.lhsBatch = []) (hrb : dd.rhsBatch = [])
    (x0 x1 : FVec Ideal ⟨2, ![r, k]⟩ .f32) (x2 : FVec Ideal ⟨2, ![k, k]⟩ .f32) (x3 : FVec Ideal ⟨2, ![1, k]⟩ .f32)
    (x4 : FVec Ideal ⟨2, ![k, k]⟩ .f32) (x5 : FVec Ideal ⟨2, ![1, k]⟩ .f32)
    (h1 : (⟨2, ![r, k]⟩ : Shape).ShapeCasts ⟨2, ![r, k]⟩) (h3 : (⟨2, ![1, k]⟩ : Shape).ShapeCasts ⟨2, ![1, k]⟩)
    (hb : (⟨2, ![1, k]⟩ : Shape).Broadcasts ⟨2, ![r, k]⟩) (hlt : (FTy.bf16).bits < (FTy.f32).bits) :
    addf (matmul dd none
        (truncf .bf16 (maximumf (addf (matmul dd none
              (truncf .bf16 (addf (shapeCast ⟨2, ![r, k]⟩ x0 h1) (shapeCast ⟨2, ![r, k]⟩ x1 h1)) hlt)
              (truncf .bf16 x2 hlt) (constant ⟨2, ![r, k]⟩ .f32 0x00000000#32))
            (broadcastTo ⟨2, ![r, k]⟩ (shapeCast ⟨2, ![1, k]⟩ x3 h3) hb))
          (broadcast ⟨2, ![r, k]⟩ (Scalar.ofBits (F := Ideal) .f32 0x00000000#32))) hlt)
        (truncf .bf16 x4 hlt) (constant ⟨2, ![r, k]⟩ .f32 0x00000000#32))
      (broadcastTo ⟨2, ![r, k]⟩ (shapeCast ⟨2, ![1, k]⟩ x5 h3) hb)
    = mlp x0 x1 x2 x3 x4 x5 := by
  rw [shapeCast_self x0 h1]
  exact body_eq dd hlc hrc hln hrn hlb hrb x0 x1 x2 x3 x4 x5 h1 h3 hb hlt

/-- The host program's spelling, on the whole arrays, the biases given as vectors. -/
theorem host_eq (dd : DotDims ⟨2, ![r, k]⟩ ⟨2, ![k, k]⟩ ⟨2, ![r, k]⟩)
    (hlc : dd.lhsContracting = [1]) (hrc : dd.rhsContracting = [0]) (hln : dd.lhsNonContracting = [0])
    (hrn : dd.rhsNonContracting = [1]) (hlb : dd.lhsBatch = []) (hrb : dd.rhsBatch = [])
    (X Y : FVec Ideal ⟨2, ![r, k]⟩ .f32) (W₁ : FVec Ideal ⟨2, ![k, k]⟩ .f32) (b₁ : FVec Ideal ⟨1, ![k]⟩ .f32)
    (W₂ : FVec Ideal ⟨2, ![k, k]⟩ .f32) (b₂ : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![r, k]⟩ ![0, 1])
    (h3 : (⟨0, ![]⟩ : Shape).BroadcastsInDim ⟨2, ![r, k]⟩ ![]) :
    addf (Host.dotGeneral dd none
        (maximumf (addf (Host.dotGeneral dd none (addf X Y) W₁)
            (broadcastInDim ⟨2, ![r, k]⟩ ![0, 1] h2 (broadcastInDim ⟨2, ![1, k]⟩ ![1] h1 b₁)))
          (broadcastInDim ⟨2, ![r, k]⟩ ![] h3 (constant (F := Ideal) ⟨0, ![]⟩ .f32 0x00000000#32)))
        W₂)
      (broadcastInDim ⟨2, ![r, k]⟩ ![0, 1] h2 (broadcastInDim ⟨2, ![1, k]⟩ ![1] h1 b₂))
    = mlp X Y W₁ (asRow b₁) W₂ (asRow b₂) := by
  show addf (FloatOps.dotGeneral dd none .single
        (maximumf (addf (FloatOps.dotGeneral dd none .single (addf X Y) W₁)
            (broadcastInDim ⟨2, ![r, k]⟩ ![0, 1] h2 (broadcastInDim ⟨2, ![1, k]⟩ ![1] h1 b₁)))
          (broadcastInDim ⟨2, ![r, k]⟩ ![] h3 (constant (F := Ideal) ⟨0, ![]⟩ .f32 0x00000000#32)))
        W₂)
      (broadcastInDim ⟨2, ![r, k]⟩ ![0, 1] h2 (broadcastInDim ⟨2, ![1, k]⟩ ![1] h1 b₂)) = _
  rw [dotGeneral_eq_matProd dd hlc hrc hln hrn hlb hrb, dotGeneral_eq_matProd dd hlc hrc hln hrn hlb hrb,
    Cert.Lib.BiasRelu.host_eq _ b₁ h1 h2 h3, Cert.Layers.host_bias _ b₂ h1 h2]
  rfl

end Cert.Lib.SumLayers

end
-- ==== Proof.KernelBlocks.lean ====
/-
  What each of the two launches leaves in its output array.

  A launch walks fifty grid points; point t stages rows 2000·t … 2000·t + 1999 of the node features and of the
  neighbour sums, the two weight matrices and the two bias rows whole, runs the body on them and writes the body's
  2000×64 result back as the same rows of the output array. The body's result is the two dense layers of its blocks
  (the function `Cert.Lib.SumLayers.mlp`), a row of which depends on the same row of the features and of the sums only; so point
  t writes back rows 2000·t … of the two layers of the WHOLE arrays, the fifty blocks cover the array, and the output
  array ends as the two layers of the whole arrays. Stated at the buffer contents the launch is entered with, a
  variable here: the program's run supplies them.
-/
import proofs.«126800_j39273180954650_1_alg».proof.Proof.Gen.KernelIdeal.Frame
import Idealize.ShloMosaic.Lib.Pipeline.Value
import Idealize.ShloMosaic.Lib.ValueIdx
import proofs.«126800_j39273180954650_1_alg».proof.Proof.LibSumLayers

noncomputable section

namespace Cert.KernelIdeal.Blocks

open Cert.KernelIdeal Cert.KernelIdeal.Gen Idealize.ShloMosaic Idealize.ShloMosaic.TcCoe Idealize.SL.Sem
open Idealize.ShloMosaic.ValueIdx Cert.Lib.SumLayers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Launch 0 -/

/-- The body's stored value is the two layers of the blocks it loaded. -/
theorem pay0_eq (x0 x1 : FVec Ideal S2000x64 .f32) (x2 : FVec Ideal S64x64 .f32) (x3 : FVec Ideal S1x64 .f32)
    (x4 : FVec Ideal S64x64 .f32) (x5 : FVec Ideal S1x64 .f32) :
    k0_pay1 (F := Ideal) x0 x1 x2 x3 x4 x5 = mlp x0 x1 x2 x3 x4 x5 := by
  unfold k0_pay1
  exact body_eq dot_S2000x64_S64x64_S2000x64_1_0_0_1_n_n rfl rfl rfl rfl rfl rfl x0 x1 x2 x3 x4 x5 _ _ _ _

/-- The printed index maps over the grid: the two feature windows and the output move down the rows with the point,
    the weights and the bias rows stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of point t's block of rows is row 2000·t + p of the array. -/
def row0 (t : Fin cfg0.N) (p : Fin 2000) : Fin 100000 :=
  ⟨t.val * 2000 + p.val, by have hN : cfg0.N = 50 := N_0; have h := t.isLt; have := p.isLt; omega⟩

theorem emb0_0 (t : Fin cfg0.N) (p : Fin 2000) (q : Fin 64) :
    ((cfg0.win 0).blk t).view.emb (ix2 p q) = ix2 (row0 t p) q := by
  funext a; apply Fin.ext
  match a with
  | ⟨0, _⟩ => show win0_0.index t (0 : Fin 2) * 2000 + 1 * p.val = t.val * 2000 + p.val; rw [(idx0 t).1]; omega
  | ⟨1, _⟩ => show win0_0.index t (1 : Fin 2) * 64 + 1 * q.val = q.val; rw [(idx0 t).2.1]; omega

theorem emb0_1 (t : Fin cfg0.N) (p : Fin 2000) (q : Fin 64) :
    ((cfg0.win 1).blk t).view.emb (ix2 p q) = ix2 (row0 t p) q := by
  funext a; apply Fin.ext
  match a with
  | ⟨0, _⟩ => show win0_1.index t (0 : Fin 2) * 2000 + 1 * p.val = t.val * 2000 + p.val; rw [(idx0 t).2.2.1]; omega
  | ⟨1, _⟩ => show win0_1.index t (1 : Fin 2) * 64 + 1 * q.val = q.val; rw [(idx0 t).2.2.2.1]; omega

theorem emb0_6 (t : Fin cfg0.N) (p : Fin 2000) (q : Fin 64) :
    ((cfg0.win 6).blk t).view.emb (ix2 p q) = ix2 (row0 t p) q := by
  funext a; apply Fin.ext
  match a with
  | ⟨0, _⟩ => show win0_6.index t (0 : Fin 2) * 2000 + 1 * p.val = t.val * 2000 + p.val; rw [(idx0 t).2.2.2.2.2.2.2.2.2.2.2.2.1]; omega
  | ⟨1, _⟩ => show win0_6.index t (1 : Fin 2) * 64 + 1 * q.val = q.val; rw [(idx0 t).2.2.2.2.2.2.2.2.2.2.2.2.2]; omega

theorem emb0_2 (t : Fin cfg0.N) (y : S64x64.Idx) : ((cfg0.win 2).blk t).view.emb y = y := by
  funext a; apply Fin.ext
  match a with
  | ⟨0, _⟩ => show win0_2.index t (0 : Fin 2) * 64 + 1 * (y 0).val = (y 0).val; rw [(idx0 t).2.2.2.2.1]; omega
  | ⟨1, _⟩ => show win0_2.index t (1 : Fin 2) * 64 + 1 * (y 1).val = (y 1).val; rw [(idx0 t).2.2.2.2.2.1]; omega

theorem emb0_3 (t : Fin cfg0.N) (y : S1x64.Idx) : ((cfg0.win 3).blk t).view.emb y = y := by
  funext a; apply Fin.ext
  match a with
  | ⟨0, _⟩ => show win0_3.index t (0 : Fin 2) * 1 + 1 * (y 0).val = (y 0).val; rw [(idx0 t).2.2.2.2.2.2.1]; omega
  | ⟨1, _⟩ => show win0_3.index t (1 : Fin 2) * 64 + 1 * (y 1).val = (y 1).val; rw [(idx0 t).2.2.2.2.2.2.2.1]; omega

theorem emb0_4 (t : Fin cfg0.N) (y : S64x64.Idx) : ((cfg0.win 4).blk t).view.emb y = y := by
  funext a; apply Fin.ext
  match a with
  | ⟨0, _⟩ => show win0_4.index t (0 : Fin 2) * 64 + 1 * (y 0).val = (y 0).val; rw [(idx0 t).2.2.2.2.2.2.2.2.1]; omega
  | ⟨1, _⟩ => show win0_4.index t (1 : Fin 2) * 64 + 1 * (y 1).val = (y 1).val; rw [(idx0 t).2.2.2.2.2.2.2.2.2.1]; omega

theorem emb0_5 (t : Fin cfg0.N) (y : S1x64.Idx) : ((cfg0.win 5).blk t).view.emb y = y := by
  funext a; apply Fin.ext
  match a with
  | ⟨0, _⟩ => show win0_5.index t (0 : Fin 2) * 1 + 1 * (y 0).val = (y 0).val; rw [(idx0 t).2.2.2.2.2.2.2.2.2.2.1]; omega
  | ⟨1, _⟩ => show win0_5.index t (1 : Fin 2) * 64 + 1 * (y 1).val = (y 1).val; rw [(idx0 t).2.2.2.2.2.2.2.2.2.2.2.1]; omega

/-- WHAT POINT t WRITES BACK is its block of rows of the two layers of the whole arrays as the launch finds them. -/
theorem flushed0_eq (c : Dev nD) (t : Fin cfg0.N) :
    (dat0 V c).flushed 6 t = ((cfg0.win 6).blk t).view.read (Elt Ideal)
      (mlp (V c main_arg0) (V c main_v13) (V c main_arg4) (V c main_v14) (V c main_arg6) (V c main_v15)) := by
  show (cfg0.win 6).cut (grid0.coords t) ((dat0 V c).after 6 t) = _
  rw [after0_6]
  unfold out0_6
  rw [View.canon_unit_zero hz]
  simp only [View.ld_unit_zero (S := S2000x64) hz, View.ld_unit_zero (S := S64x64) hz, View.ld_unit_zero (S := S1x64) hz]
  rw [pay0_eq]
  funext j
  obtain ⟨p, q, rfl⟩ : ∃ (p : Fin 2000) (q : Fin 64), j = ix2 p q := ⟨j 0, j 1, eq_ix2 j⟩
  show mlp (iblk0 V c 0 t) (iblk0 V c 1 t) (iblk0 V c 2 t) (iblk0 V c 3 t) (iblk0 V c 4 t) (iblk0 V c 5 t) (ix2 p q)
    = mlp (V c main_arg0) (V c main_v13) (V c main_arg4) (V c main_v14) (V c main_arg6) (V c main_v15) (((cfg0.win 6).blk t).view.emb (ix2 p q))
  rw [emb0_6 t p q]
  have e2 : iblk0 V c 2 t = V c main_arg4 := funext fun y => congrArg (V c main_arg4) (emb0_2 t y)
  have e3 : iblk0 V c 3 t = V c main_v14 := funext fun y => congrArg (V c main_v14) (emb0_3 t y)
  have e4 : iblk0 V c 4 t = V c main_arg6 := funext fun y => congrArg (V c main_arg6) (emb0_4 t y)
  have e5 : iblk0 V c 5 t = V c main_v15 := funext fun y => congrArg (V c main_v15) (emb0_5 t y)
  rw [e2, e3, e4, e5]
  exact mlp_rows (V c main_arg0) (V c main_v13) (iblk0 V c 0 t) (iblk0 V c 1 t) (V c main_arg4) (V c main_v14) (V c main_arg6) (V c main_v15)
    (row0 t) (fun p' c' => congrArg (V c main_arg0) (emb0_0 t p' c')) (fun p' c' => congrArg (V c main_v13) (emb0_1 t p' c')) p q

/-- An index of the array is in point t's block iff each coordinate is in the block's range on its axis. -/
theorem mem_blk0 (t : Fin cfg0.N) (i : S100000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v16).slice (win0_6.rect t)).set ↔ _
  rw [View.set_slice_whole, Rect.mem_set_unit]
  exact Iff.rfl

/-- The fifty blocks of two thousand rows cover the array: row r is in the block of point r / 2000. -/
theorem cover0 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  let t : Fin cfg0.N := ⟨(i 0).val / 2000, by have hN : cfg0.N = 50 := N_0; omega⟩
  have ht : t.val = (i 0).val / 2000 := rfl
  refine ⟨t, flush0_6 t, ?_⟩
  rw [mem_blk0]
  intro a
  match a with
  | ⟨0, _⟩ => show win0_6.index t (0 : Fin 2) * 2000 ≤ (i 0).val ∧ (i 0).val < win0_6.index t (0 : Fin 2) * 2000 + 2000; rw [(idx0 t).2.2.2.2.2.2.2.2.2.2.2.2.1]; omega
  | ⟨1, _⟩ => show win0_6.index t (1 : Fin 2) * 64 ≤ (i 1).val ∧ (i 1).val < win0_6.index t (1 : Fin 2) * 64 + 64; rw [(idx0 t).2.2.2.2.2.2.2.2.2.2.2.2.2]; omega

/-- THE OUTPUT ARRAY after the launch: the two layers of the whole arrays as the launch finds them. -/
theorem final0 (c : Dev nD) : (dat0 V c).arrAt 6 cfg0.N
    = mlp (V c main_arg0) (V c main_v13) (V c main_arg4) (V c main_v14) (V c main_arg6) (V c main_v15) :=
  (dat0 V c).arrAt_eq_of_cover 6 _ (fun t _ => flushed0_eq V c t) cover0

/-! ## Launch 1 -/

/-- The body's stored value is the two layers of the blocks it loaded. -/
theorem pay1_eq (x0 x1 : FVec Ideal S2000x64 .f32) (x2 : FVec Ideal S64x64 .f32) (x3 : FVec Ideal S1x64 .f32)
    (x4 : FVec Ideal S64x64 .f32) (x5 : FVec Ideal S1x64 .f32) :
    k1_pay1 (F := Ideal) x0 x1 x2 x3 x4 x5 = mlp x0 x1 x2 x3 x4 x5 := by
  unfold k1_pay1
  exact body_eq' dot_S2000x64_S64x64_S2000x64_1_0_0_1_n_n rfl rfl rfl rfl rfl rfl x0 x1 x2 x3 x4 x5 _ _ _ _

/-- The printed index maps over the grid: the two feature windows and the output move down the rows with the point,
    the weights and the bias rows stay. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of point t's block of rows is row 2000·t + p of the array. -/
def row1 (t : Fin cfg1.N) (p : Fin 2000) : Fin 100000 :=
  ⟨t.val * 2000 + p.val, by have hN : cfg1.N = 50 := N_1; have h := t.isLt; have := p.isLt; omega⟩

theorem emb1_0 (t : Fin cfg1.N) (p : Fin 2000) (q : Fin 64) :
    ((cfg1.win 0).blk t).view.emb (ix2 p q) = ix2 (row1 t p) q := by
  funext a; apply Fin.ext
  match a with
  | ⟨0, _⟩ => show win1_0.index t (0 : Fin 2) * 2000 + 1 * p.val = t.val * 2000 + p.val; rw [(idx1 t).1]; omega
  | ⟨1, _⟩ => show win1_0.index t (1 : Fin 2) * 64 + 1 * q.val = q.val; rw [(idx1 t).2.1]; omega

theorem emb1_1 (t : Fin cfg1.N) (p : Fin 2000) (q : Fin 64) :
    ((cfg1.win 1).blk t).view.emb (ix2 p q) = ix2 (row1 t p) q := by
  funext a; apply Fin.ext
  match a with
  | ⟨0, _⟩ => show win1_1.index t (0 : Fin 2) * 2000 + 1 * p.val = t.val * 2000 + p.val; rw [(idx1 t).2.2.1]; omega
  | ⟨1, _⟩ => show win1_1.index t (1 : Fin 2) * 64 + 1 * q.val = q.val; rw [(idx1 t).2.2.2.1]; omega

theorem emb1_6 (t : Fin cfg1.N) (p : Fin 2000) (q : Fin 64) :
    ((cfg1.win 6).blk t).view.emb (ix2 p q) = ix2 (row1 t p) q := by
  funext a; apply Fin.ext
  match a with
  | ⟨0, _⟩ => show win1_6.index t (0 : Fin 2) * 2000 + 1 * p.val = t.val * 2000 + p.val; rw [(idx1 t).2.2.2.2.2.2.2.2.2.2.2.2.1]; omega
  | ⟨1, _⟩ => show win1_6.index t (1 : Fin 2) * 64 + 1 * q.val = q.val; rw [(idx1 t).2.2.2.2.2.2.2.2.2.2.2.2.2]; omega

theorem emb1_2 (t : Fin cfg1.N) (y : S64x64.Idx) : ((cfg1.win 2).blk t).view.emb y = y := by
  funext a; apply Fin.ext
  match a with
  | ⟨0, _⟩ => show win1_2.index t (0 : Fin 2) * 64 + 1 * (y 0).val = (y 0).val; rw [(idx1 t).2.2.2.2.1]; omega
  | ⟨1, _⟩ => show win1_2.index t (1 : Fin 2) * 64 + 1 * (y 1).val = (y 1).val; rw [(idx1 t).2.2.2.2.2.1]; omega

theorem emb1_3 (t : Fin cfg1.N) (y : S1x64.Idx) : ((cfg1.win 3).blk t).view.emb y = y := by
  funext a; apply Fin.ext
  match a with
  | ⟨0, _⟩ => show win1_3.index t (0 : Fin 2) * 1 + 1 * (y 0).val = (y 0).val; rw [(idx1 t).2.2.2.2.2.2.1]; omega
  | ⟨1, _⟩ => show win1_3.index t (1 : Fin 2) * 64 + 1 * (y 1).val = (y 1).val; rw [(idx1 t).2.2.2.2.2.2.2.1]; omega

theorem emb1_4 (t : Fin cfg1.N) (y : S64x64.Idx) : ((cfg1.win 4).blk t).view.emb y = y := by
  funext a; apply Fin.ext
  match a with
  | ⟨0, _⟩ => show win1_4.index t (0 : Fin 2) * 64 + 1 * (y 0).val = (y 0).val; rw [(idx1 t).2.2.2.2.2.2.2.2.1]; omega
  | ⟨1, _⟩ => show win1_4.index t (1 : Fin 2) * 64 + 1 * (y 1).val = (y 1).val; rw [(idx1 t).2.2.2.2.2.2.2.2.2.1]; omega

theorem emb1_5 (t : Fin cfg1.N) (y : S1x64.Idx) : ((cfg1.win 5).blk t).view.emb y = y := by
  funext a; apply Fin.ext
  match a with
  | ⟨0, _⟩ => show win1_5.index t (0 : Fin 2) * 1 + 1 * (y 0).val = (y 0).val; rw [(idx1 t).2.2.2.2.2.2.2.2.2.2.1]; omega
  | ⟨1, _⟩ => show win1_5.index t (1 : Fin 2) * 64 + 1 * (y 1).val = (y 1).val; rw [(idx1 t).2.2.2.2.2.2.2.2.2.2.2.1]; omega

/-- WHAT POINT t WRITES BACK is its block of rows of the two layers of the whole arrays as the launch finds them. -/
theorem flushed1_eq (c : Dev nD) (t : Fin cfg1.N) :
    (dat1 V c).flushed 6 t = ((cfg1.win 6).blk t).view.read (Elt Ideal)
      (mlp (V c main_v16) (V c main_v26) (V c main_arg8) (V c main_v27) (V c main_arg10) (V c main_v28)) := by
  show (cfg1.win 6).cut (grid1.coords t) ((dat1 V c).after 6 t) = _
  rw [after1_6]
  unfold out1_6
  rw [View.canon_unit_zero hz]
  simp only [View.ld_unit_zero (S := S2000x64) hz, View.ld_unit_zero (S := S64x64) hz, View.ld_unit_zero (S := S1x64) hz]
  rw [pay1_eq]
  funext j
  obtain ⟨p, q, rfl⟩ : ∃ (p : Fin 2000) (q : Fin 64), j = ix2 p q := ⟨j 0, j 1, eq_ix2 j⟩
  show mlp (iblk1 V c 0 t) (iblk1 V c 1 t) (iblk1 V c 2 t) (iblk1 V c 3 t) (iblk1 V c 4 t) (iblk1 V c 5 t) (ix2 p q)
    = mlp (V c main_v16) (V c main_v26) (V c main_arg8) (V c main_v27) (V c main_arg10) (V c main_v28) (((cfg1.win 6).blk t).view.emb (ix2 p q))
  rw [emb1_6 t p q]
  have e2 : iblk1 V c 2 t = V c main_arg8 := funext fun y => congrArg (V c main_arg8) (emb1_2 t y)
  have e3 : iblk1 V c 3 t = V c main_v27 := funext fun y => congrArg (V c main_v27) (emb1_3 t y)
  have e4 : iblk1 V c 4 t = V c main_arg10 := funext fun y => congrArg (V c main_arg10) (emb1_4 t y)
  have e5 : iblk1 V c 5 t = V c main_v28 := funext fun y => congrArg (V c main_v28) (emb1_5 t y)
  rw [e2, e3, e4, e5]
  exact mlp_rows (V c main_v16) (V c main_v26) (iblk1 V c 0 t) (iblk1 V c 1 t) (V c main_arg8) (V c main_v27) (V c main_arg10) (V c main_v28)
    (row1 t) (fun p' c' => congrArg (V c main_v16) (emb1_0 t p' c')) (fun p' c' => congrArg (V c main_v26) (emb1_1 t p' c')) p q

/-- An index of the array is in point t's block iff each coordinate is in the block's range on its axis. -/
theorem mem_blk1 (t : Fin cfg1.N) (i : S100000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v29).slice (win1_6.rect t)).set ↔ _
  rw [View.set_slice_whole, Rect.mem_set_unit]
  exact Iff.rfl

/-- The fifty blocks of two thousand rows cover the array: row r is in the block of point r / 2000. -/
theorem cover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  let t : Fin cfg1.N := ⟨(i 0).val / 2000, by have hN : cfg1.N = 50 := N_1; omega⟩
  have ht : t.val = (i 0).val / 2000 := rfl
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; rw [(idx1 t).2.2.2.2.2.2.2.2.2.2.2.2.1]; omega
  | ⟨1, _⟩ => show win1_6.index t (1 : Fin 2) * 64 ≤ (i 1).val ∧ (i 1).val < win1_6.index t (1 : Fin 2) * 64 + 64; rw [(idx1 t).2.2.2.2.2.2.2.2.2.2.2.2.2]; omega

/-- THE OUTPUT ARRAY after the launch: the two layers of the whole arrays as the launch finds them. -/
theorem final1 (c : Dev nD) : (dat1 V c).arrAt 6 cfg1.N
    = mlp (V c main_v16) (V c main_v26) (V c main_arg8) (V c main_v27) (V c main_arg10) (V c main_v28) :=
  (dat1 V c).arrAt_eq_of_cover 6 _ (fun t _ => flushed1_eq V c t) cover1

end Cert.KernelIdeal.Blocks

end
-- ==== Proof.GinProgram.lean ====
/-
  The whole computation as one function of the argument arrays, on the extended reals.

  With H the 100000×64 node features, E the 2×1600000 edge list (row 0 the source node of each edge, row 1 its
  target), `edgeSum H E` is the array whose row i is the sum of the rows H(src e) over the edges e with target i:
  the rows H(src e) are gathered edge by edge (a negative source index first shifted by the number of nodes) and
  added into a zero array at the rows named by the targets. It is kept CLOSED here: both programs apply the very same
  operations, so nothing about which rows an out-of-range index selects is ever needed. One round of message passing
  is the two dense layers of H + edgeSum H E (`layer`); the result is two rounds, each with its own weights and
  biases, then every row scaled by its node's mask entry (`result`).
-/
import proofs.«126800_j39273180954650_1_alg».proof.Proof.Gen.KernelIdeal
import proofs.«126800_j39273180954650_1_alg».proof.Proof.LibSumLayers

noncomputable section

namespace Cert.KernelIdeal.Spec

open Cert.KernelIdeal Idealize.ShloMosaic Cert.Lib.SumLayers Cert.Lib.RowVector
open Cert.KernelIdeal.Facts₀ Cert.KernelIdeal.Facts

/-- The source node of every edge: row 0 of the edge list. -/
def srcOf (E : (⟨S2x1600000, .i32⟩ : BufTy).Contents (Elt Ideal)) : (⟨S1600000, .i32⟩ : BufTy).Contents (Elt Ideal) :=
  shapeCast _ (extractStridedSlice S1x1600000 ![0, 0] E slices_S2x1600000_S1x1600000_0_0) shapeCasts_S1x1600000_S1600000

/-- The target node of every edge: row 1 of the edge list. -/
def dstOf (E : (⟨S2x1600000, .i32⟩ : BufTy).Contents (Elt Ideal)) : (⟨S1600000, .i32⟩ : BufTy).Contents (Elt Ideal) :=
  shapeCast _ (extractStridedSlice S1x1600000 ![1, 0] E slices_S2x1600000_S1x1600000_1_0) shapeCasts_S1x1600000_S1600000

/-- The rows of H named by the source column `s` (a negative index first shifted by the number of nodes), added into
    a zero array at the rows named by the target column `d`. -/
def scatterRows (H : FVec Ideal S100000x64 .f32) (s d : (⟨S1600000, .i32⟩ : BufTy).Contents (Elt Ideal)) :
    FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 H
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- Row i is the sum of the rows H(src e) over the edges e whose target is i. -/
def edgeSum (H : FVec Ideal S100000x64 .f32) (E : (⟨S2x1600000, .i32⟩ : BufTy).Contents (Elt Ideal)) :
    FVec Ideal S100000x64 .f32 :=
  scatterRows H (srcOf E) (dstOf E)

/-- One round: the two dense layers of H + edgeSum H E, the biases given as vectors. -/
def layer (H : FVec Ideal S100000x64 .f32) (E : (⟨S2x1600000, .i32⟩ : BufTy).Contents (Elt Ideal))
    (W₁ : FVec Ideal S64x64 .f32) (b₁ : FVec Ideal S64 .f32) (W₂ : FVec Ideal S64x64 .f32) (b₂ : FVec Ideal S64 .f32) :
    FVec Ideal S100000x64 .f32 :=
  mlp H (edgeSum H E) W₁ (asRow b₁) W₂ (asRow b₂)

/-- Two rounds, then every row scaled by its node's mask entry. -/
def result (H : FVec Ideal S100000x64 .f32) (E : (⟨S2x1600000, .i32⟩ : BufTy).Contents (Elt Ideal))
    (M : FVec Ideal S100000x1 .f32)
    (W4 : FVec Ideal S64x64 .f32) (b5 : FVec Ideal S64 .f32) (W6 : FVec Ideal S64x64 .f32) (b7 : FVec Ideal S64 .f32)
    (W8 : FVec Ideal S64x64 .f32) (b9 : FVec Ideal S64 .f32) (W10 : FVec Ideal S64x64 .f32) (b11 : FVec Ideal S64 .f32) :
    FVec Ideal S100000x64 .f32 :=
  mulf (layer (layer H E W4 b5 W6 b7) E W8 b9 W10 b11)
    (broadcastInDim S100000x64 ![0, 1] bcast_S100000x1_S100000x64_0_1 M)

end Cert.KernelIdeal.Spec

end
-- ==== Proof.KernelRun.lean ====
/-
  The idealized kernel's whole program, run: two pipelined launches of the two-layer body among three stretches of
  host operations. From any memory with zero semaphore counters every weakly fair execution ends, and the result
  buffer then holds what the fold of the program's segments leaves in it — the host stretches' operations applied
  in order, each launch's arrays at what its write-backs leave —, the argument arrays being as launched. This is the
  several-segment launch theorem of the pipeline library applied to the program's segments, with the final reading of
  every buffer kept for the result buffer as well as for the arguments.
-/
import proofs.«126800_j39273180954650_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents and the
    arguments as launched. -/
theorem run_boundary : θ_run defs (onTc (τ := τ) (main (F := F))) ⟨m, fun _ => 0, ρ⟩ (fun r => ∀ c : Dev nD,
      r.2.mem ((c.tc : Thread nD τ).loc main_v31) = W5 m ρ c (Proc.devRef .tc main_v31)
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v31 (by decide)),
       (h c _ (mem_uc main_arg1 (by decide))).trans (W5_main_arg1 m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.KernelIdeal.RunValue

end
-- ==== Proof.KernelValue.lean ====
/-
  What the idealized kernel's program leaves in its result buffer, as the function `Spec.result` of the arguments.

  The program's run ends with the result buffer at the fold of the program's segments over the launch memory. Read
  back, segment by segment: the first host stretch leaves the neighbour sums of the node features and the two bias
  vectors re-shaped to rows; the first launch then leaves, in its output array, the two dense layers of features plus
  sums (one round); the second host stretch takes the neighbour sums of THAT array, over the same edge list, and
  re-shapes the second pair of biases; the second launch leaves the second round; and the last stretch multiplies every
  row by its node's mask entry. The weights, biases, edge list and mask are read where no operation and no launch
  has written them, so they are the launch memory's.
-/
import proofs.«126800_j39273180954650_1_alg».proof.Proof.Gen.KernelIdeal.Frame
import Idealize.ShloMosaic.Lib.StableHlo.Run
import proofs.«126800_j39273180954650_1_alg».proof.Proof.KernelBlocks
import proofs.«126800_j39273180954650_1_alg».proof.Proof.GinProgram
import proofs.«126800_j39273180954650_1_alg».proof.Proof.KernelRun

noncomputable section

namespace Cert.KernelIdeal.Fold

open Cert.KernelIdeal Cert.KernelIdeal.Gen Cert.KernelIdeal.Spec Cert.KernelIdeal.Blocks
open Idealize.ShloMosaic Idealize.ShloMosaic.TcCoe Idealize.SL.Sem Idealize.ShloMosaic.StableHlo
open Cert.Lib.SumLayers Cert.Lib.RowVector

variable (m : (ℓ : Loc nD τ sig) → Buf (Elt Ideal) ℓ) (ρ : Dev nD → PrngReg) (c : Dev nD)

/-! ## After the first host stretch -/

theorem V1_arg0 : V1 m ρ c main_arg0 = (m ((c : Thread nD τ).loc main_arg0)) := by
  show StableHlo.after hostOps0 (W0 m ρ c) (Proc.devRef .tc main_arg0) = _
  after_results
  all_goals rfl

theorem V1_arg4 : V1 m ρ c main_arg4 = (m ((c : Thread nD τ).loc main_arg4)) := by
  show StableHlo.after hostOps0 (W0 m ρ c) (Proc.devRef .tc main_arg4) = _
  after_results
  all_goals rfl

theorem V1_arg6 : V1 m ρ c main_arg6 = (m ((c : Thread nD τ).loc main_arg6)) := by
  show StableHlo.after hostOps0 (W0 m ρ c) (Proc.devRef .tc main_arg6) = _
  after_results
  all_goals rfl

/-- The neighbour sums of the node features. -/
theorem V1_v13 : V1 m ρ c main_v13 = edgeSum (m ((c : Thread nD τ).loc main_arg0)) (m ((c : Thread nD τ).loc main_arg2)) := by
  show StableHlo.after hostOps0 (W0 m ρ c) (Proc.devRef .tc main_v13) = _
  after_results
  all_goals rfl

/-- The first layer's bias as a row. -/
theorem V1_v14 : V1 m ρ c main_v14 = asRow (m ((c : Thread nD τ).loc main_arg5)) := by
  show StableHlo.after hostOps0 (W0 m ρ c) (Proc.devRef .tc main_v14) = _
  after_results
  all_goals exact shapeCast_eq_asRow _ _

/-- The second layer's bias as a row. -/
theorem V1_v15 : V1 m ρ c main_v15 = asRow (m ((c : Thread nD τ).loc main_arg7)) := by
  show StableHlo.after hostOps0 (W0 m ρ c) (Proc.devRef .tc main_v15) = _
  after_results
  all_goals exact shapeCast_eq_asRow _ _

/-- The edge list's two columns, which the first stretch computes and the second reads again. -/
theorem W1_v1 : W1 m ρ c (Proc.devRef .tc main_v1) = srcOf (m ((c : Thread nD τ).loc main_arg2)) := by
  show StableHlo.after hostOps0 (W0 m ρ c) (Proc.devRef .tc main_v1) = _
  after_results
  all_goals rfl

theorem W1_v3 : W1 m ρ c (Proc.devRef .tc main_v3) = dstOf (m ((c : Thread nD τ).loc main_arg2)) := by
  show StableHlo.after hostOps0 (W0 m ρ c) (Proc.devRef .tc main_v3) = _
  after_results
  all_goals rfl

theorem W1_arg (b : Ref sig .tc) (hb : b = main_arg3 ∨ b = main_arg8 ∨ b = main_arg9 ∨ b = main_arg10 ∨ b = main_arg11) :
    W1 m ρ c (Proc.devRef .tc b) = m ((c : Thread nD τ).loc b) := by
  rcases hb with rfl | rfl | rfl | rfl | rfl
  all_goals
    show StableHlo.after hostOps0 (W0 m ρ c) (Proc.devRef .tc _) = _
    after_results
    all_goals rfl

/-! ## After the first launch: one round -/

theorem W2_v16 : W2 m ρ c (Proc.devRef .tc main_v16)
    = layer (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) :=
  (W2_arr m ρ c 6).trans ((final0 (V1 m ρ) c).trans (by
    rw [V1_arg0 m ρ c, V1_v13 m ρ c, V1_arg4 m ρ c, V1_v14 m ρ c, V1_arg6 m ρ c, V1_v15 m ρ c]
    rfl))

/-- A buffer the first launch does not stage holds after it what it held before. -/
theorem W2_keep (b : Ref sig .tc) (hb : ∀ w, Pipeline.arrRef spec0 w ≠ b) :
    W2 m ρ c (Proc.devRef .tc b) = W1 m ρ c (Proc.devRef .tc b) := W2_of_ne m ρ c b hb

/-! ## After the second host stretch -/

theorem V3_v16 : V3 m ρ c main_v16 = W2 m ρ c (Proc.devRef .tc main_v16) := by
  show StableHlo.after hostOps1 (W2 m ρ c) (Proc.devRef .tc main_v16) = _
  after_results
  all_goals rfl

/-- The neighbour sums of the first round's output, over the same edge list. -/
theorem V3_v26 : V3 m ρ c main_v26 = edgeSum (W2 m ρ c (Proc.devRef .tc main_v16)) (m ((c : Thread nD τ).loc main_arg2)) := by
  show StableHlo.after hostOps1 (W2 m ρ c) (Proc.devRef .tc main_v26) = _
  after_results
  all_goals
    rw [W2_keep m ρ c main_v1 (by decide), W2_keep m ρ c main_v3 (by decide), W1_v1 m ρ c, W1_v3 m ρ c]
    rfl

theorem V3_arg8 : V3 m ρ c main_arg8 = (m ((c : Thread nD τ).loc main_arg8)) := by
  show StableHlo.after hostOps1 (W2 m ρ c) (Proc.devRef .tc main_arg8) = _
  after_results
  all_goals
    rw [W2_keep m ρ c main_arg8 (by decide)]
    exact W1_arg m ρ c main_arg8 (by simp)

theorem V3_arg10 : V3 m ρ c main_arg10 = (m ((c : Thread nD τ).loc main_arg10)) := by
  show StableHlo.after hostOps1 (W2 m ρ c) (Proc.devRef .tc main_arg10) = _
  after_results
  all_goals
    rw [W2_keep m ρ c main_arg10 (by decide)]
    exact W1_arg m ρ c main_arg10 (by simp)

theorem V3_v27 : V3 m ρ c main_v27 = asRow (m ((c : Thread nD τ).loc main_arg9)) := by
  show StableHlo.after hostOps1 (W2 m ρ c) (Proc.devRef .tc main_v27) = _
  after_results
  all_goals
    rw [W2_keep m ρ c main_arg9 (by decide), W1_arg m ρ c main_arg9 (by simp)]
    exact shapeCast_eq_asRow _ _

theorem V3_v28 : V3 m ρ c main_v28 = asRow (m ((c : Thread nD τ).loc main_arg11)) := by
  show StableHlo.after hostOps1 (W2 m ρ c) (Proc.devRef .tc main_v28) = _
  after_results
  all_goals
    rw [W2_keep m ρ c main_arg11 (by decide), W1_arg m ρ c main_arg11 (by simp)]
    exact shapeCast_eq_asRow _ _

/-! ## After the second launch: two rounds -/

theorem W4_v29 : W4 m ρ c (Proc.devRef .tc main_v29)
    = layer (layer (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg2)) (m ((c : Thread nD τ).loc main_arg8)) (m ((c : Thread nD τ).loc main_arg9)) (m ((c : Thread nD τ).loc main_arg10)) (m ((c : Thread nD τ).loc main_arg11)) :=
  (W4_arr m ρ c 6).trans ((final1 (V3 m ρ) c).trans (by
    rw [V3_v16 m ρ c, V3_v26 m ρ c, V3_arg8 m ρ c, V3_v27 m ρ c, V3_arg10 m ρ c, V3_v28 m ρ c, W2_v16 m ρ c]
    rfl))

/-- The mask is as launched when the last stretch reads it. -/
theorem W4_arg3 : W4 m ρ c (Proc.devRef .tc main_arg3) = (m ((c : Thread nD τ).loc main_arg3)) := by
  rw [W4_of_ne m ρ c main_arg3 (by decide)]
  show StableHlo.after hostOps1 (W2 m ρ c) (Proc.devRef .tc main_arg3) = _
  after_results
  all_goals
    rw [W2_keep m ρ c main_arg3 (by decide)]
    exact W1_arg m ρ c main_arg3 (by simp)

/-! ## The result -/

/-- The result buffer at the last boundary is the two rounds scaled by the mask. -/
theorem W5_v31 : W5 m ρ c (Proc.devRef .tc main_v31)
    = result (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps2 (W4 m ρ c) (Proc.devRef .tc main_v31) = _
  after_results
  all_goals
    rw [W4_v29 m ρ c, W4_arg3 m ρ c]
    rfl

/-- THE RUN: every weakly fair execution of the idealized kernel's program ends with the result buffer at
    `Spec.result` of the arguments, and the arguments as launched. -/
theorem run : θ_run defs (onTc (τ := τ) (main (F := Ideal))) ⟨m, fun _ => 0, ρ⟩ (fun r => ∀ c : Dev nD,
      r.2.mem ((c.tc : Thread nD τ).loc main_v31)
        = result (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W5_v31 m ρ c), (h c).2⟩)
    (Cert.KernelIdeal.RunValue.run_boundary m ρ)

end Cert.KernelIdeal.Fold

end
-- ==== Proof.RefValue.lean ====
/-
  The reference's result is the same function `Spec.result` of the arguments.

  The reference computes each round on the whole arrays: the neighbour sums by the very operations the kernel's
  program applies (so the two are one term, never opened), then the sum with the features, a dot_general, the bias
  broadcast from its vector, the maximum with a broadcast zero, a second dot_general and bias — the host spelling of
  the two dense layers (`Cert.Lib.SumLayers.host_eq`). Two rounds and the mask give `Spec.result`.
-/
import proofs.«126800_j39273180954650_1_alg».proof.Proof.Gen.ReferenceIdeal.Read
import proofs.«126800_j39273180954650_1_alg».proof.Proof.GinProgram

noncomputable section

namespace Cert.ReferenceIdeal.RefValue

open Cert.ReferenceIdeal Cert.ReferenceIdeal.Read Idealize.ShloMosaic Cert.Lib.SumLayers

variable (x0 : (⟨S100000x64, .f32⟩ : BufTy).Contents (Elt Ideal)) (x2 : (⟨S2x1600000, .i32⟩ : BufTy).Contents (Elt Ideal)) (x3 : (⟨S100000x1, .f32⟩ : BufTy).Contents (Elt Ideal))
  (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal))
  (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal))

/-- The first round's neighbour sums: the reference's operations are the kernel program's. -/
theorem sums1_eq : val_main_v13 (F := Ideal) x0 x2 = Cert.KernelIdeal.Spec.edgeSum x0 x2 := rfl

/-- The first round. -/
theorem round1_eq : val_main_v23 (F := Ideal) x0 x2 x4 x5 x6 x7 = Cert.KernelIdeal.Spec.layer x0 x2 x4 x5 x6 x7 := by
  unfold val_main_v23 val_main_v22 val_main_v21 val_main_v20 val_main_v19 val_main_call0_v0 val_main_call0_cst
    val_main_v18 val_main_v17 val_main_v16 val_main_v15 val_main_v14
  rw [sums1_eq]
  exact host_eq dot_S100000x64_S64x64_S100000x64_1_0_0_1_n_n rfl rfl rfl rfl rfl rfl x0
    (Cert.KernelIdeal.Spec.edgeSum x0 x2) x4 x5 x6 x7 _ _ _

/-- The second round's neighbour sums, of the first round's output over the same edge list. -/
theorem sums2_eq : val_main_v33 (F := Ideal) x0 x2 x4 x5 x6 x7
    = Cert.KernelIdeal.Spec.edgeSum (val_main_v23 (F := Ideal) x0 x2 x4 x5 x6 x7) x2 := rfl

/-- The second round. -/
theorem round2_eq : val_main_v43 (F := Ideal) x0 x2 x4 x5 x6 x7 x8 x9 x10 x11
    = Cert.KernelIdeal.Spec.layer (val_main_v23 (F := Ideal) x0 x2 x4 x5 x6 x7) x2 x8 x9 x10 x11 := by
  unfold val_main_v43 val_main_v42 val_main_v41 val_main_v40 val_main_v39 val_main_call1_v0 val_main_call1_cst
    val_main_v38 val_main_v37 val_main_v36 val_main_v35 val_main_v34
  rw [sums2_eq]
  exact host_eq dot_S100000x64_S64x64_S100000x64_1_0_0_1_n_n rfl rfl rfl rfl rfl rfl
    (val_main_v23 (F := Ideal) x0 x2 x4 x5 x6 x7)
    (Cert.KernelIdeal.Spec.edgeSum (val_main_v23 (F := Ideal) x0 x2 x4 x5 x6 x7) x2) x8 x9 x10 x11 _ _ _

/-- The reference's result. -/
theorem result_eq : val_main_v45 (F := Ideal) x0 x2 x3 x4 x5 x6 x7 x8 x9 x10 x11
    = Cert.KernelIdeal.Spec.result x0 x2 x3 x4 x5 x6 x7 x8 x9 x10 x11 := by
  unfold val_main_v45 val_main_v44
  rw [round2_eq, round1_eq]
  rfl

end Cert.ReferenceIdeal.RefValue

end
-- ==== Proof.lean ====
/-
  Two rounds of message passing on a graph of 100000 nodes with 64 features each and 1600000 edges, then a node mask:
  the kernel's program against the plain array program, on the extended reals.

  One round takes the node features H to  max ((H + A(H)) · W₁ + b₁, 0) · W₂ + b₂, where A(H) is the array whose row
  i is the sum of the rows of H at the sources of the edges with target i. Both programs compute A(H) by the same
  host operations (a gather of rows by the edge list's first row and an add-scatter by its second). The kernel's
  program then runs the two dense layers in a pipelined launch, fifty blocks of 2000 rows, each product with its
  operands narrowed to a shorter float format and accumulated into zeros; the array program applies them to the
  whole arrays with two dot_generals. On the extended reals narrowing a format changes nothing, a product into zeros
  is the sum over the contracted coordinate, and a row of the two layers depends on the same row of H and of A(H)
  only, so the fifty blocks written back are the rows of the two layers of the whole arrays: the two programs compute
  ONE function of the arguments, `Cert.KernelIdeal.Spec.result` (Proof/GinProgram.lean), with no sum re-ordered and
  nothing distributed or cancelled — the finiteness of the inputs is never used. The second returned value is the
  node positions, an argument both programs return untouched.

  Proof/LibSumLayers.lean has the two dense layers as a function of whole arrays, its row-locality and its two
  spellings; Proof/KernelBlocks.lean what a launch leaves in its output array; Proof/KernelRun.lean the program's run
  with the result buffer read at the last segment boundary; Proof/KernelValue.lean that boundary's contents read back
  through the launches and the host stretches; Proof/RefValue.lean the array program's result. The frames of the two
  kernel programs are the generated ones, the array program's is its generated run; no rewrite was applied when the
  kernel was idealized, so there is nothing to preserve.
-/
import proofs.«126800_j39273180954650_1_alg».proof.Defs
import proofs.«126800_j39273180954650_1_alg».proof.Proof.Gen.Kernel
import proofs.«126800_j39273180954650_1_alg».proof.Proof.Gen.Kernel.Skeleton
import proofs.«126800_j39273180954650_1_alg».proof.Proof.Gen.Kernel.Launch
import proofs.«126800_j39273180954650_1_alg».proof.Proof.Gen.Kernel.Points
import proofs.«126800_j39273180954650_1_alg».proof.Proof.Gen.Kernel.Frame
import proofs.«126800_j39273180954650_1_alg».proof.Proof.Gen.KernelIdeal
import proofs.«126800_j39273180954650_1_alg».proof.Proof.Gen.KernelIdeal.Skeleton
import proofs.«126800_j39273180954650_1_alg».proof.Proof.Gen.KernelIdeal.Launch
import proofs.«126800_j39273180954650_1_alg».proof.Proof.Gen.KernelIdeal.Points
import proofs.«126800_j39273180954650_1_alg».proof.Proof.Gen.KernelIdeal.Frame
import proofs.«126800_j39273180954650_1_alg».proof.Proof.Gen.ReferenceIdeal
import proofs.«126800_j39273180954650_1_alg».proof.Proof.Gen.Pre_finite_inputs
import proofs.«126800_j39273180954650_1_alg».proof.Proof.Gen.ReferenceIdeal.Read
import proofs.«126800_j39273180954650_1_alg».proof.Proof.KernelValue
import proofs.«126800_j39273180954650_1_alg».proof.Proof.RefValue
import Idealize.ShloMosaic.Adequacy
import Idealize.ShloMosaic.Init

noncomputable section

namespace Cert.Proof

open Idealize.ShloMosaic Idealize.ShloMosaic.TcCoe Idealize.SL.Sem

/-- The kernel's program as printed runs to its end and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the array program: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Idealizing the kernel rewrote no operation. -/
theorem preserves : Cert.preserves_Kernel_KernelIdeal := trivial

/-- From memories that agree on the arguments both programs end with the two rounds scaled by the mask, and with the
    node positions, in their result buffers. -/
theorem algebraic : Cert.algebraic_KernelIdeal_ReferenceIdeal := by
  intro m ρ m' ρ' _ hagree
  refine ⟨_, _, Cert.KernelIdeal.Fold.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11⟩ := hagree c
    rw [Cert.ReferenceIdeal.Read.val_main_v45_eq, Cert.ReferenceIdeal.RefValue.result_eq,
      h0, h2, h3, h4, h5, h6, h7, h8, h9, h10, h11]
  · exact (hagree c).2.1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
